-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024x1024 .f32) (main_arg5 : FVec F S4x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S4x1024x1024 .f32) (main_arg4 : FVec F S4x1024x1024 .f32) (main_arg5 : FVec F S4x1024 .f32) (main_arg6 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S4096x1024 : Shape := ⟨2, ![4096, 1024]⟩
abbrev S4x1024x1024 : Shape := ⟨3, ![4, 1024, 1024]⟩
abbrev S4x1024 : Shape := ⟨2, ![4, 1024]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4x1024, .f32⟩
  | .hbm, ⟨12, _⟩ => ⟨S1x4096, .f32⟩
  | .hbm, ⟨13, _⟩ => ⟨S4096x1024, .f32⟩
  | .hbm, ⟨14, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x1024x1024_S4096x1024 : S4x1024x1024.ShapeCasts S4096x1024
  bitsLt_bf16_f32 : FTy.bits .bf16 < FTy.bits .f32
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4x1024x1024 : Shape := ⟨3, ![4, 1024, 1024]⟩
abbrev S4x1024 : Shape := ⟨2, ![4, 1024]⟩
abbrev S4096x4x1024 : Shape := ⟨3, ![4096, 4, 1024]⟩
abbrev S1x4x1024 : Shape := ⟨3, ![1, 4, 1024]⟩
abbrev S4096x1x1024 : Shape := ⟨3, ![4096, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4096x4x1024, .f32⟩
  | .hbm, ⟨8, _⟩ => ⟨S4096x4x1024, .f32⟩
  | .hbm, ⟨9, _⟩ => ⟨S4096x4x1024, .f32⟩
  | .hbm, ⟨10, _⟩ => ⟨S1x4x1024, .f32⟩
  | .hbm, ⟨11, _⟩ => ⟨S4096x4x1024, .f32⟩
  | .hbm, ⟨12, _⟩ => ⟨S4096x4x1024, .f32⟩
  | .hbm, ⟨13, _⟩ => ⟨S1x4x1024, .f32⟩
  | .hbm, ⟨14, _⟩ => ⟨S4096x4x1024, .f32⟩
  | .hbm, ⟨15, _⟩ => ⟨S4096x4x1024, .f32⟩
  | .hbm, ⟨16, _⟩ => ⟨S4096x1x1024, .f32⟩
  | .hbm, ⟨17, _⟩ => ⟨S4096x1024, .f32⟩
  | .hbm, ⟨18, _⟩ => ⟨S4096x1024, .f32⟩
  | .hbm, ⟨19, _⟩ => ⟨S4096x1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S4096x4x1024_0_1_2 : S1x4x1024.BroadcastsInDim S4096x4x1024 (![0, 1, 2] : Fin 3 → Fin S4096x4x1024.rank)
  slices_S4096x4x1024_S4096x1x1024_0_0_0 : S4096x4x1024.Slices ![0, 0, 0] S4096x1x1024
  shapeCasts_S4096x1x1024_S4096x1024 : S4096x1x1024.ShapeCasts S4096x1024
  slices_S4096x4x1024_S4096x1x1024_0_1_0 : S4096x4x1024.Slices ![0, 1, 0] S4096x1x1024
  bcast_S_S4096x1024 : S_.BroadcastsInDim S4096x1024 (![] : Fin 0 → Fin S4096x1024.rank)
  slices_S4096x4x1024_S4096x1x1024_0_2_0 : S4096x4x1024.Slices ![0, 2, 0] S4096x1x1024
  slices_S4096x4x1024_S4096x1x1024_0_3_0 : S4096x4x1024.Slices ![0, 3, 0] S4096x1x1024
  dot_S4096x1024_S4x1024x1024_S4096x4x1024_1_2_0_01_n_n_wf : DotDims.WF S4096x1024 S4x1024x1024 S4096x4x1024 [1] [2] [0] [0, 1] [] []

variable [Facts₀]

def dot_S4096x1024_S4x1024x1024_S4096x4x1024_1_2_0_01_n_n : DotDims S4096x1024 S4x1024x1024 S4096x4x1024 where
  lhsContracting := [1]
  rhsContracting := [2]
  lhsNonContracting := [0]
  rhsNonContracting := [0, 1]
  lhsBatch := []
  rhsBatch := []
  wf := dot_S4096x1024_S4x1024x1024_S4096x4x1024_1_2_0_01_n_n_wf

class Facts : Prop extends Facts₀ where

variable [Facts]
-- ==== Proof.LstmSpec.lean ====
/-
  The LSTM cell that both programs compute, written once as functions of the seven argument arrays, index by
  index on the extended reals.

  For batch row `r`, gate `g` (0 the candidate, 1 the input gate, 2 the forget gate, 3 the output gate) and
  hidden unit `j`, the gate's pre-activation is
      x_r · Wx[g, j, :]  +  h_r · Wh[g, j, :]  +  (bx[g, j] + bh[g, j]),
  two inner products over the 1024 input features and the two biases. The new cell state is
      c'[r, j] = tanh(pre 0) · σ(pre 1) + c[r, j] · σ(pre 2)
  and the new hidden state `h'[r, j] = tanh(c'[r, j]) · σ(pre 3)`, where σ is the logistic function
  `1 / (1 + e^(-t))` with its limits `0` at `-∞` and `1` at `+∞`.

  The one algebraic fact that joins the two programs is the grouping of the biases: one of them adds the sum
  `bx + bh` to the products, the other adds `bx` and then `bh`. Addition on the extended reals is associative
  without any finiteness assumption, so no hypothesis about the inputs is used.
-/
import Idealize.ShloMosaic.PureOps.Ideal
import Idealize.ShloMosaic.PureOps.Ideal.Laws
import Idealize.ShloMosaic.PureOps.IdealRules
import Idealize.ShloMosaic.Lib.ValueIdx

noncomputable section

namespace Cert.Lstm

open Idealize.ShloMosaic Idealize.ShloMosaic.ValueIdx

/-- A batch × feature array: the inputs `x`, `h`, `c` and both results. -/
abbrev Rows : Type := FVec Ideal (⟨2, ![4096, 1024]⟩ : Shape) .f32
/-- A gate × hidden × feature weight array. -/
abbrev Weights : Type := FVec Ideal (⟨3, ![4, 1024, 1024]⟩ : Shape) .f32
/-- A gate × hidden bias array. -/
abbrev Biases : Type := FVec Ideal (⟨2, ![4, 1024]⟩ : Shape) .f32

/-- Gate `g`'s pre-activation at batch row `r` and hidden unit `j`: the two inner products over the input
    features, plus the sum of the two biases. -/
def gate (x h : Rows) (Wx Wh : Weights) (bx bh : Biases) (r : Fin 4096) (g : Fin 4) (j : Fin 1024) : EReal :=
  (∑ k : Fin 1024, x (ix2 r k) * Wx (ix3 g j k)) + (∑ k : Fin 1024, h (ix2 r k) * Wh (ix3 g j k))
    + (bx (ix2 g j) + bh (ix2 g j))

/-- The same pre-activation with the biases added one after the other. -/
theorem gate_biases_in_turn (x h : Rows) (Wx Wh : Weights) (bx bh : Biases) (r : Fin 4096) (g : Fin 4) (j : Fin 1024) :
    (∑ k : Fin 1024, x (ix2 r k) * Wx (ix3 g j k)) + (∑ k : Fin 1024, h (ix2 r k) * Wh (ix3 g j k))
        + bx (ix2 g j) + bh (ix2 g j)
      = gate x h Wx Wh bx bh r g j := by
  unfold gate
  exact add_assoc _ _ _

/-- The new cell state at `(r, j)`: candidate times input gate, plus old cell state times forget gate. -/
def cellAt (x h c : Rows) (Wx Wh : Weights) (bx bh : Biases) (r : Fin 4096) (j : Fin 1024) : EReal :=
  Ideal.tanh (gate x h Wx Wh bx bh r 0 j) * Ideal.logistic (gate x h Wx Wh bx bh r 1 j)
    + c (ix2 r j) * Ideal.logistic (gate x h Wx Wh bx bh r 2 j)

/-- The new hidden state at `(r, j)`: the squashed new cell state times the output gate. -/
def hiddenAt (x h c : Rows) (Wx Wh : Weights) (bx bh : Biases) (r : Fin 4096) (j : Fin 1024) : EReal :=
  Ideal.tanh (cellAt x h c Wx Wh bx bh r j) * Ideal.logistic (gate x h Wx Wh bx bh r 3 j)

/-- The new cell state as an array. -/
def cell (x h c : Rows) (Wx Wh : Weights) (bx bh : Biases) : Rows :=
  fun i => cellAt x h c Wx Wh bx bh (i 0) (i 1)

/-- The new hidden state as an array. -/
def hidden (x h c : Rows) (Wx Wh : Weights) (bx bh : Biases) : Rows :=
  fun i => hiddenAt x h c Wx Wh bx bh (i 0) (i 1)

theorem cell_apply (x h c : Rows) (Wx Wh : Weights) (bx bh : Biases) (r : Fin 4096) (j : Fin 1024) :
    cell x h c Wx Wh bx bh (ix2 r j) = cellAt x h c Wx Wh bx bh r j := rfl

theorem hidden_apply (x h c : Rows) (Wx Wh : Weights) (bx bh : Biases) (r : Fin 4096) (j : Fin 1024) :
    hidden x h c Wx Wh bx bh (ix2 r j) = hiddenAt x h c Wx Wh bx bh r j := rfl

/-- The packed layout: gate `g`, hidden unit `j` sits at position `g · 1024 + j` of a packed axis of length 4096
    (the row-major merge of the gate and hidden axes). -/
def col (g : Fin 4) (j : Fin 1024) : Fin 4096 :=
  ⟨g.val * 1024 + j.val, by have := g.isLt; have := j.isLt; omega⟩

theorem col_val (g : Fin 4) (j : Fin 1024) : (col g j).val = g.val * 1024 + j.val := rfl

/-- The binary32 word `0x3F800000` (sign 0, exponent 127, fraction 0) denotes the number one. -/
theorem one_f32 : Ideal.ofBits .f32 0x3F800000#32 = 1 := IdealRules.sign_bit.ideal_onePat .f32

/-- The logistic function spelt as a quotient: `1 / (1 + e^(-t))` on every extended real. -/
theorem logistic_as_quotient (t : EReal) : Ideal.div 1 (1 + Ideal.exp (-t)) = Ideal.logistic t := rfl

end Cert.Lstm

end
-- ==== Proof.LstmReference.lean ====
/-
  The reference program computes the LSTM cell of `LstmSpec`.

  Its `[4096, 4, 1024]` pre-activation tensor at `(r, g, j)` is the two contractions over the feature axis plus
  `bx[g, j]` and then `bh[g, j]`, which is `Cert.Lstm.gate` once the two biases are grouped. Gate `g` is the
  slice `[:, g, :]` reshaped to `[4096, 1024]`: row-major position `r · 1024 + j` of the reshaped array is position
  `(r, 0, j)` of the slice, hence `(r, g, j)` of the tensor. The reference spells the logistic function as the
  quotient `1 / (1 + e^(-t))` with the literal `1.0`; on the extended reals that quotient is the logistic function
  by definition.
-/
import proofs.«127061_j46540265620152_2_alg».proof.Proof.Gen.ReferenceIdeal.Read
import proofs.«127061_j46540265620152_2_alg».proof.Proof.LstmSpec

noncomputable section

namespace Cert.Lstm.Reference

open Idealize.ShloMosaic Idealize.ShloMosaic.ValueIdx Cert.ReferenceIdeal Cert.ReferenceIdeal.Read Cert.Lstm

variable (x h c : Rows) (Wx Wh : Weights) (bx bh : Biases)

/-- The pre-activation tensor at `(r, g, j)` is the gate's pre-activation. -/
theorem pre_apply (r : Fin 4096) (g : Fin 4) (j : Fin 1024) :
    val_main_v8 (F := Ideal) x h Wx Wh bx bh (ix3 r g j) = gate x h Wx Wh bx bh r g j := by
  have el0 : ∀ k : Fin 1024, lidx_main_v0 (ix3 r g j) k = ix2 r k := fun k =>
    funext fun a => Fin.ext (by match a with | ⟨0, _⟩ => rfl | ⟨1, _⟩ => rfl)
  have er0 : ∀ k : Fin 1024, ridx_main_v0 (ix3 r g j) k = ix3 g j k := fun k =>
    funext fun a => Fin.ext (by match a with | ⟨0, _⟩ => rfl | ⟨1, _⟩ => rfl | ⟨2, _⟩ => rfl)
  have el1 : ∀ k : Fin 1024, lidx_main_v1 (ix3 r g j) k = ix2 r k := fun k =>
    funext fun a => Fin.ext (by match a with | ⟨0, _⟩ => rfl | ⟨1, _⟩ => rfl)
  have er1 : ∀ k : Fin 1024, ridx_main_v1 (ix3 r g j) k = ix3 g j k := fun k =>
    funext fun a => Fin.ext (by match a with | ⟨0, _⟩ => rfl | ⟨1, _⟩ => rfl | ⟨2, _⟩ => rfl)
  have eb0 : idx_main_v3 (idx_main_v4 (ix3 r g j)) = ix2 g j :=
    funext fun a => Fin.ext (by match a with | ⟨0, _⟩ => rfl | ⟨1, _⟩ => rfl)
  have eb1 : idx_main_v6 (idx_main_v7 (ix3 r g j)) = ix2 g j :=
    funext fun a => Fin.ext (by match a with | ⟨0, _⟩ => rfl | ⟨1, _⟩ => rfl)
  rw [val_main_v8_apply, val_main_v5_apply, val_main_v2_apply, val_main_v0_apply, val_main_v1_apply,
    val_main_v4_apply, val_main_v3_apply, val_main_v7_apply, val_main_v6_apply, eb0, eb1]
  simp only [el0, er0, el1, er1, Ideal.addf_def]
  exact gate_biases_in_turn x h Wx Wh bx bh r g j

/-- Where the reshaped slice of gate 0 reads the pre-activation tensor. -/
theorem slice0_idx (r : Fin 4096) (j : Fin 1024) : idx_main_v9 (idx_main_v10 (ix2 r j)) = ix3 r 0 j := by
  have hr := r.isLt; have hj := j.isLt
  funext a; apply Fin.ext
  match a with
  | ⟨0, _⟩ => show (r.val * 1024 + j.val) / 1024 = r.val; omega
  | ⟨1, _⟩ => rfl
  | ⟨2, _⟩ => show (r.val * 1024 + j.val) % 1024 = j.val; omega

/-- Where the reshaped slice of gate 1 reads the pre-activation tensor. -/
theorem slice1_idx (r : Fin 4096) (j : Fin 1024) : idx_main_v12 (idx_main_v13 (ix2 r j)) = ix3 r 1 j := by
  have hr := r.isLt; have hj := j.isLt
  funext a; apply Fin.ext
  match a with
  | ⟨0, _⟩ => show (r.val * 1024 + j.val) / 1024 = r.val; omega
  | ⟨1, _⟩ => rfl
  | ⟨2, _⟩ => show (r.val * 1024 + j.val) % 1024 = j.val; omega

/-- Where the reshaped slice of gate 2 reads the pre-activation tensor. -/
theorem slice2_idx (r : Fin 4096) (j : Fin 1024) : idx_main_v20 (idx_main_v21 (ix2 r j)) = ix3 r 2 j := by
  have hr := r.isLt; have hj := j.isLt
  funext a; apply Fin.ext
  match a with
  | ⟨0, _⟩ => show (r.val * 1024 + j.val) / 1024 = r.val; omega
  | ⟨1, _⟩ => rfl
  | ⟨2, _⟩ => show (r.val * 1024 + j.val) % 1024 = j.val; omega

/-- Where the reshaped slice of gate 3 reads the pre-activation tensor. -/
theorem slice3_idx (r : Fin 4096) (j : Fin 1024) : idx_main_v28 (idx_main_v29 (ix2 r j)) = ix3 r 3 j := by
  have hr := r.isLt; have hj := j.isLt
  funext a; apply Fin.ext
  match a with
  | ⟨0, _⟩ => show (r.val * 1024 + j.val) / 1024 = r.val; omega
  | ⟨1, _⟩ => rfl
  | ⟨2, _⟩ => show (r.val * 1024 + j.val) % 1024 = j.val; omega

/-- The candidate gate: `tanh` of gate 0's pre-activation. -/
theorem candidate_apply (r : Fin 4096) (j : Fin 1024) :
    val_main_v11 (F := Ideal) x h Wx Wh bx bh (ix2 r j) = Ideal.tanh (gate x h Wx Wh bx bh r 0 j) := by
  rw [val_main_v11_apply, val_main_v10_apply, val_main_v9_apply, slice0_idx, pre_apply]
  rfl

/-- The input gate: the logistic function of gate 1's pre-activation, spelt as a quotient. -/
theorem input_gate_apply (r : Fin 4096) (j : Fin 1024) :
    val_main_v19 (F := Ideal) x h Wx Wh bx bh (ix2 r j) = Ideal.logistic (gate x h Wx Wh bx bh r 1 j) := by
  rw [val_main_v19_apply, val_main_v18_apply, val_main_cst_0_apply, val_main_v17_apply, val_main_v16_apply,
    val_main_cst_apply, val_main_v15_apply, val_main_v14_apply, val_main_v13_apply, val_main_v12_apply, slice1_idx,
    pre_apply]
  simp only [Ideal.ofBits_def, one_f32, Ideal.hostDivf_def, Ideal.addf_def, Ideal.hostUnary_exp_def,
    Ideal.hostNegf_def, Ideal.negf_def]
  exact logistic_as_quotient _

/-- The forget gate: the logistic function of gate 2's pre-activation. -/
theorem forget_gate_apply (r : Fin 4096) (j : Fin 1024) :
    val_main_v27 (F := Ideal) x h Wx Wh bx bh (ix2 r j) = Ideal.logistic (gate x h Wx Wh bx bh r 2 j) := by
  rw [val_main_v27_apply, val_main_v26_apply, val_main_cst_2_apply, val_main_v25_apply, val_main_v24_apply,
    val_main_cst_1_apply, val_main_v23_apply, val_main_v22_apply, val_main_v21_apply, val_main_v20_apply, slice2_idx,
    pre_apply]
  simp only [Ideal.ofBits_def, one_f32, Ideal.hostDivf_def, Ideal.addf_def, Ideal.hostUnary_exp_def,
    Ideal.hostNegf_def, Ideal.negf_def]
  exact logistic_as_quotient _

/-- The output gate: the logistic function of gate 3's pre-activation. -/
theorem output_gate_apply (r : Fin 4096) (j : Fin 1024) :
    val_main_v35 (F := Ideal) x h Wx Wh bx bh (ix2 r j) = Ideal.logistic (gate x h Wx Wh bx bh r 3 j) := by
  rw [val_main_v35_apply, val_main_v34_apply, val_main_cst_4_apply, val_main_v33_apply, val_main_v32_apply,
    val_main_cst_3_apply, val_main_v31_apply, val_main_v30_apply, val_main_v29_apply, val_main_v28_apply, slice3_idx,
    pre_apply]
  simp only [Ideal.ofBits_def, one_f32, Ideal.hostDivf_def, Ideal.addf_def, Ideal.hostUnary_exp_def,
    Ideal.hostNegf_def, Ideal.negf_def]
  exact logistic_as_quotient _

/-- The reference's second result is the new cell state. -/
theorem cell_eq : val_main_v38 (F := Ideal) x h c Wx Wh bx bh = cell x h c Wx Wh bx bh := by
  funext i
  obtain ⟨r, j, rfl⟩ : ∃ (r : Fin 4096) (j : Fin 1024), i = ix2 r j := ⟨i 0, i 1, eq_ix2 i⟩
  rw [val_main_v38_apply, val_main_v36_apply, val_main_v37_apply, candidate_apply, input_gate_apply,
    forget_gate_apply, cell_apply]
  rfl

/-- The reference's first result is the new hidden state. -/
theorem hidden_eq : val_main_v40 (F := Ideal) x h c Wx Wh bx bh = hidden x h c Wx Wh bx bh := by
  funext i
  obtain ⟨r, j, rfl⟩ : ∃ (r : Fin 4096) (j : Fin 1024), i = ix2 r j := ⟨i 0, i 1, eq_ix2 i⟩
  rw [val_main_v40_apply, val_main_v39_apply, output_gate_apply,
    congrFun (cell_eq x h c Wx Wh bx bh) (ix2 r j), cell_apply, hidden_apply]
  rfl

end Cert.Lstm.Reference

end
-- ==== Proof.LstmKernelGate.lean ====
/-
  The kernel body's packed pre-activation, read at an index.

  At a grid point the body holds a `[256, 1024]` block of `x` and of `h`, the two packed `[4096, 1024]` weight
  arrays (row `g · 1024 + j` of a packed array is gate `g`, hidden unit `j`) and the packed `[1, 4096]` bias. Its
  `[256, 4096]` pre-activation is two matrix products contracted over the shared feature axis, each accumulated into
  zeros, plus the bias row broadcast down the rows. On the extended reals a product into a zero accumulator is the
  plain sum of the products over the 1024 features, and rounding an operand to a narrower float format is the
  identity, so entry `(p, q)` is
      ∑ k, xblk[p, k] · wx[q, k]  +  ∑ k, hblk[p, k] · wh[q, k]  +  b[0, q].
-/
import proofs.«127061_j46540265620152_2_alg».proof.Proof.Gen.KernelIdeal.Skeleton
import proofs.«127061_j46540265620152_2_alg».proof.Proof.LstmSpec
import Idealize.ShloMosaic.Lib.Pipeline.Value
import Idealize.ShloMosaic.Lib.ValueIdx
import Idealize.ShloMosaic.PureOps.Ideal.Laws

noncomputable section

namespace Cert.Lstm.Kernel

open Idealize.ShloMosaic Idealize.ShloMosaic.ValueIdx Cert.KernelIdeal Cert.KernelIdeal.Gen Cert.Lstm

/-- The dimension numbers of both matrix products: rows of the left operand against rows of the right one,
    contracted over the second axis of each. -/
abbrev D : DotDims S256x1024 S4096x1024 S256x4096 := dot_S256x1024_S4096x1024_S256x4096_1_1_0_0_n_n

/-- The left operand is read at the output's row … -/
theorem lhs_row (i : S256x4096.Idx) (q : D.contr.Idx) : (D.lhsIdx i q 0).val = (i 0).val := by
  unfold DotDims.lhsIdx
  rw [dif_neg (show ¬(0 : Fin S256x1024.rank) ∈ D.lhsBatch by decide),
    dif_pos (show (0 : Fin S256x1024.rank) ∈ D.lhsNonContracting by decide)]
  rfl
/-- … and at the contraction index; -/
theorem lhs_feature (i : S256x4096.Idx) (q : D.contr.Idx) : (D.lhsIdx i q 1).val = (q ⟨0, by decide⟩).val :=
  D.lhsIdx_val_of_single rfl i q
/-- the right operand at the output's column … -/
theorem rhs_row (i : S256x4096.Idx) (q : D.contr.Idx) : (D.rhsIdx i q 0).val = (i 1).val := by
  unfold DotDims.rhsIdx
  rw [dif_neg (show ¬(0 : Fin S4096x1024.rank) ∈ D.rhsBatch by decide),
    dif_pos (show (0 : Fin S4096x1024.rank) ∈ D.rhsNonContracting by decide)]
  rfl
/-- … and at the contraction index. -/
theorem rhs_feature (i : S256x4096.Idx) (q : D.contr.Idx) : (D.rhsIdx i q 1).val = (q ⟨0, by decide⟩).val :=
  D.rhsIdx_val_of_single rfl i q

/-- One matrix product of the body at `(p, q)`: the sum over the features of row `p` of the block times row `q` of
    the packed weights. -/
theorem product_apply (A : FVec Ideal S256x1024 .f32) (W : FVec Ideal S4096x1024 .bf16) (p : Fin 256) (q : Fin 4096) :
    matmul D none (truncf .bf16 A bitsLt_bf16_f32) (shapeCast S4096x1024 W shapeCasts_S4096x1024_S4096x1024)
        (constant S256x4096 .f32 0x00000000#32) (ix2 p q)
      = ∑ k : Fin 1024, A (ix2 p k) * W (ix2 q k) := by
  rw [shapeCast_self]
  refine (Ideal.matmul_constant_zero_apply D none _ _ _).trans ?_
  rw [← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun a => Fin.ext (by
    match a with
    | ⟨0, _⟩ => exact lhs_row _ _
    | ⟨1, _⟩ => exact (lhs_feature _ _).trans hk)
  have er : D.rhsIdx (ix2 p q) ((contrEquiv1 D 1024 rfl rfl).symm k) = ix2 q k := funext fun a => Fin.ext (by
    match a with
    | ⟨0, _⟩ => exact rhs_row _ _
    | ⟨1, _⟩ => exact (rhs_feature _ _).trans hk)
  rw [el, er]
  rfl

/-- The bias row broadcast down the rows, at `(p, q)`, is the row's entry `q`. -/
theorem bias_apply (b : FVec Ideal S1x4096 .f32) (p : Fin 256) (q : Fin 4096) :
    broadcastTo S256x4096 (shapeCast S1x4096 b shapeCasts_S1x4096_S1x4096) broadcasts_S1x4096_S256x4096 (ix2 p q)
      = b (ix2 0 q) := by
  rw [shapeCast_self]
  exact broadcastTo_apply b broadcasts_S1x4096_S256x4096 (ix2 p q) (ix2 0 q) (fun a => match a with
    | ⟨0, _⟩ => by show (0 : Nat) = if (1 : Nat) = 1 then 0 else _; rw [if_pos rfl]
    | ⟨1, _⟩ => by show q.val = if (4096 : Nat) = 1 then 0 else q.val; rw [if_neg (by decide)])

/-- The packed pre-activation at `(p, q)`. -/
theorem packed_apply (P0 P1 : FVec Ideal S256x1024 .f32) (P2 P3 : FVec Ideal S4096x1024 .bf16)
    (P4 : FVec Ideal S1x4096 .f32) (p : Fin 256) (q : Fin 4096) :
    k0_pay1 (F := Ideal) P0 P1 P2 P3 P4 (ix2 p q)
      = (∑ k : Fin 1024, P0 (ix2 p k) * P2 (ix2 q k)) + (∑ k : Fin 1024, P1 (ix2 p k) * P3 (ix2 q k))
          + P4 (ix2 0 q) := by
  show (matmul D none (truncf .bf16 P0 bitsLt_bf16_f32) (shapeCast S4096x1024 P2 shapeCasts_S4096x1024_S4096x1024)
        (constant S256x4096 .f32 0x00000000#32)) (ix2 p q)
      + (matmul D none (truncf .bf16 P1 bitsLt_bf16_f32) (shapeCast S4096x1024 P3 shapeCasts_S4096x1024_S4096x1024)
        (constant S256x4096 .f32 0x00000000#32)) (ix2 p q)
      + (broadcastTo S256x4096 (shapeCast S1x4096 P4 shapeCasts_S1x4096_S1x4096) broadcasts_S1x4096_S256x4096) (ix2 p q)
      = _
  rw [product_apply, product_apply, bias_apply]

end Cert.Lstm.Kernel

end
-- ==== Proof.LstmKernelBlock.lean ====
/-
  One block of the kernel's results, entry by entry.

  The body slices its `[256, 4096]` packed pre-activation into four `[256, 1024]` gates at the column offsets
  `0, 1024, 2048, 3072`: entry `(p, j)` of gate `g` is the packed entry `(p, g · 1024 + j)`. So entry `(p, j)` of
  the cell-state block is `tanh(pre 0) · σ(pre 1) + cblk[p, j] · σ(pre 2)` and of the hidden-state block
  `tanh(that) · σ(pre 3)`, with `pre g` the packed pre-activation at column `g · 1024 + j`.

  Once each load is known to hold the right rows of the argument arrays — row `p` of the `x`, `h`, `c` blocks is
  row `R` of the arrays, row `g · 1024 + j` of a packed weight array is `W[g, j, :]`, entry `g · 1024 + j` of the packed
  bias is `bx[g, j] + bh[g, j]` — these are the cell's formulas at `(R, j)`.
-/
import proofs.«127061_j46540265620152_2_alg».proof.Proof.Gen.KernelIdeal.Value
import proofs.«127061_j46540265620152_2_alg».proof.Proof.LstmKernelGate

noncomputable section

namespace Cert.Lstm.Kernel

open Idealize.ShloMosaic Idealize.ShloMosaic.ValueIdx Cert.KernelIdeal Cert.KernelIdeal.Gen Cert.KernelIdeal.Value Cert.Lstm

/-- Gate `g`'s pre-activation for row `p` of the block and hidden unit `j`, from the body's loads. -/
def blockGate (P0 P1 : FVec Ideal S256x1024 .f32) (P2 P3 : FVec Ideal S4096x1024 .bf16) (P4 : FVec Ideal S1x4096 .f32)
    (p : Fin 256) (g : Fin 4) (j : Fin 1024) : EReal :=
  (∑ k : Fin 1024, P0 (ix2 p k) * P2 (ix2 (col g j) k)) + (∑ k : Fin 1024, P1 (ix2 p k) * P3 (ix2 (col g j) k))
    + P4 (ix2 0 (col g j))

variable (P0 P1 P5 : FVec Ideal S256x1024 .f32) (P2 P3 : FVec Ideal S4096x1024 .bf16) (P4 : FVec Ideal S1x4096 .f32)

/-- The packed pre-activation at gate `g`'s column of unit `j`. -/
theorem packed_at_col (p : Fin 256) (g : Fin 4) (j : Fin 1024) :
    k0_pay1 (F := Ideal) P0 P1 P2 P3 P4 (ix2 p (col g j)) = blockGate P0 P1 P2 P3 P4 p g j :=
  packed_apply P0 P1 P2 P3 P4 p (col g j)

/-! The columns the four slices read, for the cell-state block … -/

theorem cell_slice0 (p : Fin 256) (j : Fin 1024) : ix7_0 (ix2 p j) = ix2 p (col 0 j) :=
  funext fun a => Fin.ext (by
    match a with
    | ⟨0, _⟩ => rfl
    | ⟨1, _⟩ => show j.val = 0 * 1024 + j.val; omega)
theorem cell_slice1 (p : Fin 256) (j : Fin 1024) : ix7_1 (ix2 p j) = ix2 p (col 1 j) :=
  funext fun a => Fin.ext (by
    match a with
    | ⟨0, _⟩ => rfl
    | ⟨1, _⟩ => show j.val + 1024 = 1 * 1024 + j.val; omega)
theorem cell_old (p : Fin 256) (j : Fin 1024) : ix7_2 (ix2 p j) = ix2 p j :=
  funext fun a => Fin.ext (by
    match a with
    | ⟨0, _⟩ => rfl
    | ⟨1, _⟩ => rfl)
theorem cell_slice2 (p : Fin 256) (j : Fin 1024) : ix7_3 (ix2 p j) = ix2 p (col 2 j) :=
  funext fun a => Fin.ext (by
    match a with
    | ⟨0, _⟩ => rfl
    | ⟨1, _⟩ => show j.val + 2048 = 2 * 1024 + j.val; omega)

/-! … and for the hidden-state block. -/

theorem hidden_slice0 (p : Fin 256) (j : Fin 1024) : ix6_0 (ix2 p j) = ix2 p (col 0 j) :=
  funext fun a => Fin.ext (by
    match a with
    | ⟨0, _⟩ => rfl
    | ⟨1, _⟩ => show j.val = 0 * 1024 + j.val; omega)
theorem hidden_slice1 (p : Fin 256) (j : Fin 1024) : ix6_1 (ix2 p j) = ix2 p (col 1 j) :=
  funext fun a => Fin.ext (by
    match a with
    | ⟨0, _⟩ => rfl
    | ⟨1, _⟩ => show j.val + 1024 = 1 * 1024 + j.val; omega)
theorem hidden_old (p : Fin 256) (j : Fin 1024) : ix6_2 (ix2 p j) = ix2 p j :=
  funext fun a => Fin.ext (by
    match a with
    | ⟨0, _⟩ => rfl
    | ⟨1, _⟩ => rfl)
theorem hidden_slice2 (p : Fin 256) (j : Fin 1024) : ix6_3 (ix2 p j) = ix2 p (col 2 j) :=
  funext fun a => Fin.ext (by
    match a with
    | ⟨0, _⟩ => rfl
    | ⟨1, _⟩ => show j.val + 2048 = 2 * 1024 + j.val; omega)
theorem hidden_slice3 (p : Fin 256) (j : Fin 1024) : ix6_4 (ix2 p j) = ix2 p (col 3 j) :=
  funext fun a => Fin.ext (by
    match a with
    | ⟨0, _⟩ => rfl
    | ⟨1, _⟩ => show j.val + 3072 = 3 * 1024 + j.val; omega)

/-- The cell-state block at `(p, j)`, over the body's loads. -/
theorem cell_block (p : Fin 256) (j : Fin 1024) :
    E7 (F := Ideal) P0 P1 P2 P3 P4 P5 (ix2 p j)
      = Ideal.tanh (blockGate P0 P1 P2 P3 P4 p 0 j) * Ideal.logistic (blockGate P0 P1 P2 P3 P4 p 1 j)
          + P5 (ix2 p j) * Ideal.logistic (blockGate P0 P1 P2 P3 P4 p 2 j) := by
  show FloatOps.addf (FloatOps.mulf (FloatOps.tanh (k0_pay1 (F := Ideal) P0 P1 P2 P3 P4 (ix7_0 (ix2 p j))))
        (FloatOps.logistic (k0_pay1 (F := Ideal) P0 P1 P2 P3 P4 (ix7_1 (ix2 p j)))))
      (FloatOps.mulf (P5 (ix7_2 (ix2 p j))) (FloatOps.logistic (k0_pay1 (F := Ideal) P0 P1 P2 P3 P4 (ix7_3 (ix2 p j))))) = _
  rw [cell_slice0, cell_slice1, cell_old, cell_slice2, packed_at_col, packed_at_col, packed_at_col]
  rfl

/-- The hidden-state block at `(p, j)`, over the body's loads. -/
theorem hidden_block (p : Fin 256) (j : Fin 1024) :
    E6 (F := Ideal) P0 P1 P2 P3 P4 P5 (ix2 p j)
      = Ideal.tanh (Ideal.tanh (blockGate P0 P1 P2 P3 P4 p 0 j) * Ideal.logistic (blockGate P0 P1 P2 P3 P4 p 1 j)
            + P5 (ix2 p j) * Ideal.logistic (blockGate P0 P1 P2 P3 P4 p 2 j))
          * Ideal.logistic (blockGate P0 P1 P2 P3 P4 p 3 j) := by
  show FloatOps.mulf (FloatOps.tanh (FloatOps.addf
        (FloatOps.mulf (FloatOps.tanh (k0_pay1 (F := Ideal) P0 P1 P2 P3 P4 (ix6_0 (ix2 p j))))
          (FloatOps.logistic (k0_pay1 (F := Ideal) P0 P1 P2 P3 P4 (ix6_1 (ix2 p j)))))
        (FloatOps.mulf (P5 (ix6_2 (ix2 p j))) (FloatOps.logistic (k0_pay1 (F := Ideal) P0 P1 P2 P3 P4 (ix6_3 (ix2 p j)))))))
      (FloatOps.logistic (k0_pay1 (F := Ideal) P0 P1 P2 P3 P4 (ix6_4 (ix2 p j)))) = _
  rw [hidden_slice0, hidden_slice1, hidden_old, hidden_slice2, hidden_slice3, packed_at_col, packed_at_col,
    packed_at_col, packed_at_col]
  rfl

/-! ## From the loads to the argument arrays -/

variable (x h c : Rows) (Wx Wh : Weights) (bx bh : Biases) (p : Fin 256) (R : Fin 4096)

/-- When the loads hold the argument arrays' rows, the block's pre-activation is the gate's. -/
theorem blockGate_eq
    (hx : ∀ k : Fin 1024, P0 (ix2 p k) = x (ix2 R k)) (hh : ∀ k : Fin 1024, P1 (ix2 p k) = h (ix2 R k))
    (hWx : ∀ (g : Fin 4) (j k : Fin 1024), P2 (ix2 (col g j) k) = Wx (ix3 g j k))
    (hWh : ∀ (g : Fin 4) (j k : Fin 1024), P3 (ix2 (col g j) k) = Wh (ix3 g j k))
    (hb : ∀ (g : Fin 4) (j : Fin 1024), P4 (ix2 0 (col g j)) = bx (ix2 g j) + bh (ix2 g j))
    (g : Fin 4) (j : Fin 1024) :
    blockGate P0 P1 P2 P3 P4 p g j = gate x h Wx Wh bx bh R g j := by
  unfold blockGate gate
  rw [hb g j, Finset.sum_congr rfl (fun k _ => by rw [hx k, hWx g j k] :
      ∀ k ∈ (Finset.univ : Finset (Fin 1024)), P0 (ix2 p k) * P2 (ix2 (col g j) k) = x (ix2 R k) * Wx (ix3 g j k)),
    Finset.sum_congr rfl (fun k _ => by rw [hh k, hWh g j k] :
      ∀ k ∈ (Finset.univ : Finset (Fin 1024)), P1 (ix2 p k) * P3 (ix2 (col g j) k) = h (ix2 R k) * Wh (ix3 g j k))]

/-- Then the cell-state block at `(p, j)` is the new cell state at `(R, j)` … -/
theorem cell_block_eq
    (hx : ∀ k : Fin 1024, P0 (ix2 p k) = x (ix2 R k)) (hh : ∀ k : Fin 1024, P1 (ix2 p k) = h (ix2 R k))
    (hWx : ∀ (g : Fin 4) (j k : Fin 1024), P2 (ix2 (col g j) k) = Wx (ix3 g j k))
    (hWh : ∀ (g : Fin 4) (j k : Fin 1024), P3 (ix2 (col g j) k) = Wh (ix3 g j k))
    (hb : ∀ (g : Fin 4) (j : Fin 1024), P4 (ix2 0 (col g j)) = bx (ix2 g j) + bh (ix2 g j))
    (hc : ∀ j : Fin 1024, P5 (ix2 p j) = c (ix2 R j)) (j : Fin 1024) :
    E7 (F := Ideal) P0 P1 P2 P3 P4 P5 (ix2 p j) = cellAt x h c Wx Wh bx bh R j := by
  rw [cell_block, hc j, blockGate_eq P0 P1 P2 P3 P4 x h Wx Wh bx bh p R hx hh hWx hWh hb 0 j,
    blockGate_eq P0 P1 P2 P3 P4 x h Wx Wh bx bh p R hx hh hWx hWh hb 1 j,
    blockGate_eq P0 P1 P2 P3 P4 x h Wx Wh bx bh p R hx hh hWx hWh hb 2 j]
  rfl

/-- … and the hidden-state block the new hidden state. -/
theorem hidden_block_eq
    (hx : ∀ k : Fin 1024, P0 (ix2 p k) = x (ix2 R k)) (hh : ∀ k : Fin 1024, P1 (ix2 p k) = h (ix2 R k))
    (hWx : ∀ (g : Fin 4) (j k : Fin 1024), P2 (ix2 (col g j) k) = Wx (ix3 g j k))
    (hWh : ∀ (g : Fin 4) (j k : Fin 1024), P3 (ix2 (col g j) k) = Wh (ix3 g j k))
    (hb : ∀ (g : Fin 4) (j : Fin 1024), P4 (ix2 0 (col g j)) = bx (ix2 g j) + bh (ix2 g j))
    (hc : ∀ j : Fin 1024, P5 (ix2 p j) = c (ix2 R j)) (j : Fin 1024) :
    E6 (F := Ideal) P0 P1 P2 P3 P4 P5 (ix2 p j) = hiddenAt x h c Wx Wh bx bh R j := by
  rw [hidden_block, hc j, blockGate_eq P0 P1 P2 P3 P4 x h Wx Wh bx bh p R hx hh hWx hWh hb 0 j,
    blockGate_eq P0 P1 P2 P3 P4 x h Wx Wh bx bh p R hx hh hWx hWh hb 1 j,
    blockGate_eq P0 P1 P2 P3 P4 x h Wx Wh bx bh p R hx hh hWx hWh hb 2 j,
    blockGate_eq P0 P1 P2 P3 P4 x h Wx Wh bx bh p R hx hh hWx hWh hb 3 j]
  rfl

end Cert.Lstm.Kernel

end
-- ==== Proof.LstmKernelInputs.lean ====
/-
  What the body's loads hold at grid point `t`, as entries of the seven argument arrays.

  The grid has 16 points. At point `t` the blocks of `x`, `h` and `c` (and of both results) are rows
  `256 · t … 256 · t + 255` of their arrays: a block's entry `(p, k)` is the array's entry `(256 · t + p, k)`. The
  packed weights and the packed bias are each one whole-array block, the same at every point. Before the call the
  program reshapes each `[4, 1024, 1024]` weight array to `[4096, 1024]` (and rounds it to a narrower format, the
  identity here) — row-major, so row `g · 1024 + j` of the packed array is `W[g, j, :]` — and adds the two biases
  and reshapes the `[4, 1024]` sum to `[1, 4096]`, so entry `g · 1024 + j` of the packed bias is `bx[g, j] + bh[g, j]`.
-/
import proofs.«127061_j46540265620152_2_alg».proof.Proof.Gen.KernelIdeal.Frame
import proofs.«127061_j46540265620152_2_alg».proof.Proof.LstmSpec
import Idealize.ShloMosaic.Lib.Pipeline.Value
import Idealize.ShloMosaic.Lib.StableHlo.Run
import Idealize.ShloMosaic.Lib.ValueIdx

noncomputable section

namespace Cert.Lstm.Kernel

open Idealize.ShloMosaic Idealize.ShloMosaic.TcCoe Idealize.ShloMosaic.ValueIdx Idealize.SL.Sem
open Cert.KernelIdeal Cert.KernelIdeal.Gen Cert.Lstm

variable (m : (ℓ : Loc nD τ sig) → Buf (Elt Ideal) ℓ)

/-! The seven argument arrays as launched on core `c`, at the specification's types. -/
abbrev xOf (c : Dev nD) : Rows := m ((c : Thread nD τ).loc main_arg0)
abbrev hOf (c : Dev nD) : Rows := m ((c : Thread nD τ).loc main_arg1)
abbrev cOf (c : Dev nD) : Rows := m ((c : Thread nD τ).loc main_arg2)
abbrev WxOf (c : Dev nD) : Weights := m ((c : Thread nD τ).loc main_arg3)
abbrev WhOf (c : Dev nD) : Weights := m ((c : Thread nD τ).loc main_arg4)
abbrev bxOf (c : Dev nD) : Biases := m ((c : Thread nD τ).loc main_arg5)
abbrev bhOf (c : Dev nD) : Biases := m ((c : Thread nD τ).loc main_arg6)

/-- The array row under row `p` of a block at point `t`. -/
def rowOf (t : Fin cfg0.N) (p : Fin 256) : Fin 4096 :=
  ⟨t.val * 256 + p.val, by have := t.isLt; have hN : cfg0.N = 16 := N_0; have := p.isLt; omega⟩

theorem rowOf_val (t : Fin cfg0.N) (p : Fin 256) : (rowOf t p).val = t.val * 256 + p.val := rfl

/-- The printed index maps, decided over the 16 points: the row blocks move with the point, the packed arrays stay. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-! ## The three row blocks -/

/-- Row `p` of the `x` block at point `t` is row `256 · t + p` of `x`. -/
theorem x_block (c : Dev nD) (t : Fin cfg0.N) (p : Fin 256) (k : Fin 1024) :
    (iblk m c 0 t : Vec Ideal S256x1024 .f32) (ix2 p k)
      = xOf m c (ix2 (rowOf t p) k) := by
  obtain ⟨⟨e0, e1⟩, -⟩ := block_index t
  show V m c main_arg0 (((cfg0.win 0).blk t).view.emb (ix2 p k)) = _
  rw [V_main_arg0]
  refine congrArg (xOf m c) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- Row `p` of the `h` block at point `t` is row `256 · t + p` of `h`. -/
theorem h_block (c : Dev nD) (t : Fin cfg0.N) (p : Fin 256) (k : Fin 1024) :
    (iblk m c 1 t : Vec Ideal S256x1024 .f32) (ix2 p k)
      = hOf m c (ix2 (rowOf t p) k) := by
  obtain ⟨-, ⟨e0, e1⟩, -⟩ := block_index t
  show V m c main_arg1 (((cfg0.win 1).blk t).view.emb (ix2 p k)) = _
  rw [V_main_arg1]
  refine congrArg (hOf m c) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- Row `p` of the `c` block at point `t` is row `256 · t + p` of `c`. -/
theorem c_block (c : Dev nD) (t : Fin cfg0.N) (p : Fin 256) (k : Fin 1024) :
    (iblk m c 2 t : Vec Ideal S256x1024 .f32) (ix2 p k)
      = cOf m c (ix2 (rowOf t p) k) := by
  obtain ⟨-, -, ⟨e0, e1⟩, -⟩ := block_index t
  show V m c main_arg2 (((cfg0.win 2).blk t).view.emb (ix2 p k)) = _
  rw [V_main_arg2]
  refine congrArg (cOf m c) (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

/-! ## The packed arrays the host operations leave -/

/-- The first packed weight array: `Wx` reshaped to `[4096, 1024]`. -/
theorem packed_Wx (c : Dev nD) :
    @Eq (FVec Ideal S4096x1024 .bf16) (V m c main_v1)
      (truncf .bf16 (shapeCast S4096x1024 (WxOf m c) shapeCasts_S4x1024x1024_S4096x1024) bitsLt_bf16_f32) := by
  dsimp only [V, hostOps0]; after_results; rfl

/-- The second packed weight array: `Wh` reshaped to `[4096, 1024]`. -/
theorem packed_Wh (c : Dev nD) :
    @Eq (FVec Ideal S4096x1024 .bf16) (V m c main_v3)
      (truncf .bf16 (shapeCast S4096x1024 (WhOf m c) shapeCasts_S4x1024x1024_S4096x1024) bitsLt_bf16_f32) := by
  dsimp only [V, hostOps0]; after_results; rfl

/-- The packed bias: `bx + bh` reshaped to `[1, 4096]`. -/
theorem packed_bias (c : Dev nD) :
    @Eq (FVec Ideal S1x4096 .f32) (V m c main_v5)
      (shapeCast S1x4096 (addf (bxOf m c) (bhOf m c)) shapeCasts_S4x1024_S1x4096) := by
  dsimp only [V, hostOps0]; after_results; rfl

/-- A `[4, 1024, 1024]` array reshaped to `[4096, 1024]`, at row `g · 1024 + j`. -/
theorem reshape_weights (W : Weights) (g : Fin 4) (j k : Fin 1024) :
    shapeCast S4096x1024 W shapeCasts_S4x1024x1024_S4096x1024 (ix2 (col g j) k) = W (ix3 g j k) := by
  refine shapeCast_apply W shapeCasts_S4x1024x1024_S4096x1024 (ix2 (col g j) k) (ix3 g j k) ?_
  rw [Shape.rowMajor_val_three, Shape.rowMajor_val_two]
  show (g.val * 1024 + j.val) * 1024 + k.val = (g.val * 1024 + j.val) * 1024 + k.val
  rfl

/-- A `[4, 1024]` array reshaped to `[1, 4096]`, at entry `g · 1024 + j`. -/
theorem reshape_biases (b : Biases) (g : Fin 4) (j : Fin 1024) :
    shapeCast S1x4096 b shapeCasts_S4x1024_S1x4096 (ix2 0 (col g j)) = b (ix2 g j) := by
  refine shapeCast_apply b shapeCasts_S4x1024_S1x4096 (ix2 0 (col g j)) (ix2 g j) ?_
  rw [Shape.rowMajor_val_two, Shape.rowMajor_val_two]
  show g.val * 1024 + j.val = 0 * 4096 + (g.val * 1024 + j.val)
  omega

/-- Row `g · 1024 + j` of the first packed weight block, at every point, is `Wx[g, j, :]`. -/
theorem Wx_block (c : Dev nD) (t : Fin cfg0.N) (g : Fin 4) (j k : Fin 1024) :
    (iblk m c 3 t : Vec Ideal S4096x1024 .bf16) (ix2 (col g j) k)
      = WxOf m c (ix3 g j k) := by
  obtain ⟨-, -, -, ⟨e0, e1⟩, -⟩ := block_index t
  have hq := col_val g j
  have hemb : ((cfg0.win 3).blk t).view.emb (ix2 (col g j) k) = ix2 (col g j) k := funext fun a => Fin.ext (by
    match a with
    | ⟨0, _⟩ => show win0_3.index t (0 : Fin 2) * 4096 + 1 * (col g j).val = (col g j).val; omega
    | ⟨1, _⟩ => show win0_3.index t (1 : Fin 2) * 1024 + 1 * k.val = k.val; omega)
  show V m c main_v1 (((cfg0.win 3).blk t).view.emb (ix2 (col g j) k)) = _
  rw [hemb]
  refine (congrFun (packed_Wx m c) (ix2 (col g j) k)).trans ?_
  exact reshape_weights (WxOf m c) g j k

/-- Row `g · 1024 + j` of the second packed weight block, at every point, is `Wh[g, j, :]`. -/
theorem Wh_block (c : Dev nD) (t : Fin cfg0.N) (g : Fin 4) (j k : Fin 1024) :
    (iblk m c 4 t : Vec Ideal S4096x1024 .bf16) (ix2 (col g j) k)
      = WhOf m c (ix3 g j k) := by
  obtain ⟨-, -, -, -, ⟨e0, e1⟩, -⟩ := block_index t
  have hq := col_val g j
  have hemb : ((cfg0.win 4).blk t).view.emb (ix2 (col g j) k) = ix2 (col g j) k := funext fun a => Fin.ext (by
    match a with
    | ⟨0, _⟩ => show win0_4.index t (0 : Fin 2) * 4096 + 1 * (col g j).val = (col g j).val; omega
    | ⟨1, _⟩ => show win0_4.index t (1 : Fin 2) * 1024 + 1 * k.val = k.val; omega)
  show V m c main_v3 (((cfg0.win 4).blk t).view.emb (ix2 (col g j) k)) = _
  rw [hemb]
  refine (congrFun (packed_Wh m c) (ix2 (col g j) k)).trans ?_
  exact reshape_weights (WhOf m c) g j k

/-- Entry `g · 1024 + j` of the packed bias block, at every point, is `bx[g, j] + bh[g, j]`. -/
theorem bias_block (c : Dev nD) (t : Fin cfg0.N) (g : Fin 4) (j : Fin 1024) :
    (iblk m c 5 t : Vec Ideal S1x4096 .f32) (ix2 0 (col g j))
      = bxOf m c (ix2 g j) + bhOf m c (ix2 g j) := by
  obtain ⟨-, -, -, -, -, ⟨e0, e1⟩, -⟩ := block_index t
  have hq := col_val g j
  have hemb : ((cfg0.win 5).blk t).view.emb (ix2 0 (col g j)) = ix2 0 (col g j) := funext fun a => Fin.ext (by
    match a with
    | ⟨0, _⟩ => show win0_5.index t (0 : Fin 2) * 1 + 1 * 0 = 0; omega
    | ⟨1, _⟩ => show win0_5.index t (1 : Fin 2) * 4096 + 1 * (col g j).val = (col g j).val; omega)
  show V m c main_v5 (((cfg0.win 5).blk t).view.emb (ix2 0 (col g j))) = _
  rw [hemb]
  refine (congrFun (packed_bias m c) (ix2 0 (col g j))).trans ?_
  exact reshape_biases (addf (bxOf m c) (bhOf m c)) g j

/-! ## Where a result block sits in its array -/

/-- Entry `(p, j)` of the hidden-state block at point `t` is entry `(256 · t + p, j)` of the array. -/
theorem hidden_emb (t : Fin cfg0.N) (p : Fin 256) (j : Fin 1024) :
    ((cfg0.win 6).blk t).view.emb (ix2 p j) = ix2 (rowOf t p) j := by
  obtain ⟨-, -, -, -, -, -, ⟨e0, e1⟩, -⟩ := block_index t
  refine funext fun a => Fin.ext ?_
  match a with
  | ⟨0, _⟩ => show win0_6.index t (0 : Fin 2) * 256 + 1 * p.val = t.val * 256 + p.val; omega
  | ⟨1, _⟩ => show win0_6.index t (1 : Fin 2) * 1024 + 1 * j.val = j.val; omega

/-- Entry `(p, j)` of the cell-state block at point `t` is entry `(256 · t + p, j)` of the array. -/
theorem cell_emb (t : Fin cfg0.N) (p : Fin 256) (j : Fin 1024) :
    ((cfg0.win 7).blk t).view.emb (ix2 p j) = ix2 (rowOf t p) j := by
  obtain ⟨-, -, -, -, -, -, -, ⟨e0, e1⟩⟩ := block_index t
  refine funext fun a => Fin.ext ?_
  match a with
  | ⟨0, _⟩ => show win0_7.index t (0 : Fin 2) * 256 + 1 * p.val = t.val * 256 + p.val; omega
  | ⟨1, _⟩ => show win0_7.index t (1 : Fin 2) * 1024 + 1 * j.val = j.val; omega

end Cert.Lstm.Kernel

end
-- ==== Proof.LstmKernelArray.lean ====
/-
  The kernel's two result arrays after the run are the LSTM cell of `LstmSpec`.

  At every one of the 16 grid points the pipeline writes back, to each result array, the block of rows
  `256 · t … 256 · t + 255`, and what it writes is that block of the cell's array: entry `(p, j)` of the body's block is
  the cell at `(256 · t + p, j)`, by the block formulas and what the loads hold at the point. Row `r` of an array lies
  in the block of point `r / 256`, so the 16 blocks cover each array and the arrays end holding the cell's arrays.
-/
import proofs.«127061_j46540265620152_2_alg».proof.Proof.Gen.KernelIdeal.Value
import proofs.«127061_j46540265620152_2_alg».proof.Proof.LstmKernelBlock
import proofs.«127061_j46540265620152_2_alg».proof.Proof.LstmKernelInputs

noncomputable section

namespace Cert.Lstm.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Lstm

variable (m : (ℓ : Loc nD τ sig) → Buf (Elt Ideal) ℓ) (ρ : Dev nD → PrngReg)

/-- The new hidden state of the program's argument arrays as launched on core `c`. -/
abbrev hiddenOf (c : Dev nD) : Rows :=
  hidden (xOf m c) (hOf m c) (cOf m c) (WxOf m c) (WhOf m c) (bxOf m c) (bhOf m c)

/-- The new cell state of the program's argument arrays as launched on core `c`. -/
abbrev cellOf (c : Dev nD) : Rows :=
  cell (xOf m c) (hOf m c) (cOf m c) (WxOf m c) (WhOf m c) (bxOf m c) (bhOf m c)

theorem zero_offsets : (![0, 0] : Fin 2 → Nat) = fun _ => 0 := funext fun a => by fin_cases a <;> rfl

/-! ## What a point writes back -/

/-- Point `t` writes back block `t` of the new hidden state. -/
theorem flushed_hidden (c : Dev nD) (t : Fin cfg0.N) :
    (dats m 0 c).flushed 6 t = ((cfg0.win 6).blk t).view.read (Elt Ideal) (hiddenOf m c) := by
  rw [Value.flushed6]
  unfold out0_6
  simp only [View.ld_unit_zero (S := S256x1024) zero_offsets, View.ld_unit_zero (S := S4096x1024) zero_offsets,
    View.ld_unit_zero (S := S1x4096) zero_offsets]
  refine funext fun (y : S256x1024.Idx) => ?_
  obtain ⟨p, j, rfl⟩ : ∃ (p : Fin 256) (j : Fin 1024), y = ix2 p j := ⟨y 0, y 1, eq_ix2 y⟩
  show View.canon ([⟨r0_0, k0_pay3 (iblk m c 0 t) (iblk m c 1 t) (iblk m c 2 t) (iblk m c 3 t) (iblk m c 4 t)
        (iblk m c 5 t)⟩] : List (View.Piece (Elt Ideal) S256x1024 .f32))
      (ix2 p j) = hiddenOf m c (((cfg0.win 6).blk t).view.emb (ix2 p j))
  refine (Value.canon6_eq (iblk m c 0 t) (iblk m c 1 t) (iblk m c 3 t) (iblk m c 4 t) (iblk m c 5 t) (iblk m c 2 t)
    (ix2 p j)).trans ?_
  rw [hidden_emb t p j]
  exact hidden_block_eq (iblk m c 0 t) (iblk m c 1 t) (iblk m c 2 t) (iblk m c 3 t) (iblk m c 4 t) (iblk m c 5 t)
    (xOf m c) (hOf m c) (cOf m c) (WxOf m c) (WhOf m c) (bxOf m c) (bhOf m c) p (rowOf t p) (x_block m c t p) (h_block m c t p) (Wx_block m c t) (Wh_block m c t) (bias_block m c t)
    (c_block m c t p) j

/-- Point `t` writes back block `t` of the new cell state. -/
theorem flushed_cell (c : Dev nD) (t : Fin cfg0.N) :
    (dats m 0 c).flushed 7 t = ((cfg0.win 7).blk t).view.read (Elt Ideal) (cellOf m c) := by
  rw [Value.flushed7]
  unfold out0_7
  simp only [View.ld_unit_zero (S := S256x1024) zero_offsets, View.ld_unit_zero (S := S4096x1024) zero_offsets,
    View.ld_unit_zero (S := S1x4096) zero_offsets]
  refine funext fun (y : S256x1024.Idx) => ?_
  obtain ⟨p, j, rfl⟩ : ∃ (p : Fin 256) (j : Fin 1024), y = ix2 p j := ⟨y 0, y 1, eq_ix2 y⟩
  show View.canon ([⟨r0_0, k0_pay2 (iblk m c 0 t) (iblk m c 1 t) (iblk m c 2 t) (iblk m c 3 t) (iblk m c 4 t)
        (iblk m c 5 t)⟩] : List (View.Piece (Elt Ideal) S256x1024 .f32))
      (ix2 p j) = cellOf m c (((cfg0.win 7).blk t).view.emb (ix2 p j))
  refine (Value.canon7_eq (iblk m c 0 t) (iblk m c 1 t) (iblk m c 3 t) (iblk m c 4 t) (iblk m c 5 t) (iblk m c 2 t)
    (ix2 p j)).trans ?_
  rw [cell_emb t p j]
  exact cell_block_eq (iblk m c 0 t) (iblk m c 1 t) (iblk m c 2 t) (iblk m c 3 t) (iblk m c 4 t) (iblk m c 5 t)
    (xOf m c) (hOf m c) (cOf m c) (WxOf m c) (WhOf m c) (bxOf m c) (bhOf m c) p (rowOf t p) (x_block m c t p) (h_block m c t p) (Wx_block m c t) (Wh_block m c t) (bias_block m c t)
    (c_block m c t p) j

/-! ## The blocks cover the arrays -/

/-- An index of the hidden-state array is in point `t`'s block iff each coordinate is in the block's range. -/
theorem mem_hidden_block (t : Fin cfg0.N) (i : S4096x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v6_0).slice (win0_6.rect t)).set ↔ _
  rw [View.set_slice_whole, Rect.mem_set_unit]
  exact Iff.rfl

/-- An index of the cell-state array is in point `t`'s block iff each coordinate is in the block's range. -/
theorem mem_cell_block (t : Fin cfg0.N) (i : S4096x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v6_1).slice (win0_7.rect t)).set ↔ _
  rw [View.set_slice_whole, Rect.mem_set_unit]
  exact Iff.rfl

/-- Row `r` is in the block of point `r / 256`. -/
theorem hidden_covered (i : S4096x1024.Idx) :
    ∃ t : Fin cfg0.N, (cfg0.win 6).flush t = true ∧ i ∈ ((cfg0.win 6).blk t).view.set := by
  have hN : cfg0.N = 16 := N_0
  have h0 : (i 0).val < 4096 := (i 0).isLt
  have h1 : (i 1).val < 1024 := (i 1).isLt
  obtain ⟨t, ht⟩ : ∃ t : Fin cfg0.N, t.val = (i 0).val / 256 := ⟨⟨(i 0).val / 256, by omega⟩, rfl⟩
  obtain ⟨-, -, -, -, -, -, ⟨e0, e1⟩, -⟩ := block_index t
  refine ⟨t, flush0_6 t, ?_⟩
  rw [mem_hidden_block]
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 1024 ≤ (i 1).val ∧ (i 1).val < win0_6.index t (1 : Fin 2) * 1024 + 1024
    omega

theorem cell_covered (i : S4096x1024.Idx) :
    ∃ t : Fin cfg0.N, (cfg0.win 7).flush t = true ∧ i ∈ ((cfg0.win 7).blk t).view.set := by
  have hN : cfg0.N = 16 := N_0
  have h0 : (i 0).val < 4096 := (i 0).isLt
  have h1 : (i 1).val < 1024 := (i 1).isLt
  obtain ⟨t, ht⟩ : ∃ t : Fin cfg0.N, t.val = (i 0).val / 256 := ⟨⟨(i 0).val / 256, by omega⟩, rfl⟩
  obtain ⟨-, -, -, -, -, -, -, ⟨e0, e1⟩⟩ := block_index t
  refine ⟨t, flush0_7 t, ?_⟩
  rw [mem_cell_block]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 1024 ≤ (i 1).val ∧ (i 1).val < win0_7.index t (1 : Fin 2) * 1024 + 1024
    omega

/-! ## The arrays after the run -/

/-- The hidden-state array after the last point. -/
theorem final_hidden (c : Dev nD) : (dats m 0 c).arrAt 6 cfg0.N = hiddenOf m c :=
  (dats m 0 c).arrAt_eq_of_cover 6 (hiddenOf m c) (fun t _ => flushed_hidden m c t) hidden_covered

/-- The cell-state array after the last point. -/
theorem final_cell (c : Dev nD) : (dats m 0 c).arrAt 7 cfg0.N = cellOf m c :=
  (dats m 0 c).arrAt_eq_of_cover 7 (cellOf m c) (fun t _ => flushed_cell m c t) cell_covered

/-- Every weakly fair execution of the idealized kernel terminates with its two result arrays at the new hidden and
    cell states of the arguments, and the arguments unchanged. -/
theorem run : θ_run defs (onTc (τ := τ) (main (F := Ideal))) ⟨m, fun _ => 0, ρ⟩ fun r => ∀ c : Dev nD,
      r.2.mem ((c : Thread nD τ).loc main_v6_0) = hiddenOf m c
      ∧ r.2.mem ((c : Thread nD τ).loc main_v6_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Value.run_blocks m ρ)

end Cert.Lstm.Kernel

end
-- ==== Proof.lean ====
/-
  An LSTM cell computed by a tiled kernel against its plain array reference, on the extended reals.

  Both programs take `x`, `h`, `c` of shape `[4096, 1024]`, weights `Wx`, `Wh` of shape `[4, 1024, 1024]` and
  biases `bx`, `bh` of shape `[4, 1024]`, and return the new hidden state and the new cell state
      pre[r, g, j] = x_r · Wx[g, j, :] + h_r · Wh[g, j, :] + bx[g, j] + bh[g, j]
      c'[r, j]     = tanh(pre[r, 0, j]) · σ(pre[r, 1, j]) + c[r, j] · σ(pre[r, 2, j])
      h'[r, j]     = tanh(c'[r, j]) · σ(pre[r, 3, j]).
  The kernel walks 16 blocks of 256 rows; per block it multiplies against the weights packed gate-major into
  `[4096, 1024]` arrays, adds the packed sum of the two biases, and cuts the four gates out of the `[256, 4096]`
  product by column ranges. The reference contracts against the `[4, 1024, 1024]` weights directly, adds the biases
  one after the other, and spells the logistic function as `1 / (1 + e^(-t))`.

  Read at the exact instance (floats are extended reals, every operation exact, a change of format the identity) both
  are the function `Cert.Lstm.hidden` / `Cert.Lstm.cell` of the arguments, index by index: a matrix product into
  zeros is the plain sum of products over the 1024 features on both sides; the packed row `g · 1024 + j` is
  `W[g, j, :]` because the packing is a row-major reshape; the logistic function is that quotient by definition; and
  the two groupings of the biases agree because addition of extended reals is associative. No step needs the inputs
  to be finite, so the precondition is never opened.

  The three frames are the generated ones (the reference's is its generated run with the results dropped); the
  idealization rewrote nothing, so the fourth conjunct is `True`.
-/
import proofs.«127061_j46540265620152_2_alg».proof.Defs
import proofs.«127061_j46540265620152_2_alg».proof.Proof.Gen.Kernel
import proofs.«127061_j46540265620152_2_alg».proof.Proof.Gen.Kernel.Skeleton
import proofs.«127061_j46540265620152_2_alg».proof.Proof.Gen.Kernel.Launch
import proofs.«127061_j46540265620152_2_alg».proof.Proof.Gen.Kernel.Points
import proofs.«127061_j46540265620152_2_alg».proof.Proof.Gen.Kernel.Frame
import proofs.«127061_j46540265620152_2_alg».proof.Proof.Gen.KernelIdeal
import proofs.«127061_j46540265620152_2_alg».proof.Proof.Gen.KernelIdeal.Skeleton
import proofs.«127061_j46540265620152_2_alg».proof.Proof.Gen.KernelIdeal.Launch
import proofs.«127061_j46540265620152_2_alg».proof.Proof.Gen.KernelIdeal.Points
import proofs.«127061_j46540265620152_2_alg».proof.Proof.Gen.KernelIdeal.Frame
import proofs.«127061_j46540265620152_2_alg».proof.Proof.Gen.ReferenceIdeal
import proofs.«127061_j46540265620152_2_alg».proof.Proof.Gen.Pre_finite_inputs
import proofs.«127061_j46540265620152_2_alg».proof.Proof.Gen.KernelIdeal.Value
import proofs.«127061_j46540265620152_2_alg».proof.Proof.Gen.ReferenceIdeal.Run
import proofs.«127061_j46540265620152_2_alg».proof.Proof.Gen.ReferenceIdeal.Read
import proofs.«127061_j46540265620152_2_alg».proof.Proof.LstmReference
import proofs.«127061_j46540265620152_2_alg».proof.Proof.LstmKernelArray
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with what it says about the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel. -/
theorem preserves : Cert.preserves_Kernel_KernelIdeal := trivial

/-- From memories that agree on the seven arguments, the idealized kernel ends with its two results at the new hidden
    and cell states of the arguments, and so does the idealized reference. -/
theorem algebraic : Cert.algebraic_KernelIdeal_ReferenceIdeal := by
  intro m ρ m' ρ' _ hagree
  refine ⟨fun c => Cert.Lstm.Kernel.hiddenOf m c, fun c => Cert.Lstm.Kernel.cellOf m c, Cert.Lstm.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v40_eq, Cert.Lstm.Reference.hidden_eq, (hagree c).1, (hagree c).2.1,
      (hagree c).2.2.1, (hagree c).2.2.2.1, (hagree c).2.2.2.2.1, (hagree c).2.2.2.2.2.1, (hagree c).2.2.2.2.2.2]
  · refine (Cert.ReferenceIdeal.Read.val_main_v38_eq _ _ _ _ _ _ _).trans ?_
    rw [Cert.Lstm.Reference.cell_eq, (hagree c).1, (hagree c).2.1,
      (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
